-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x600000 32) (main_arg2 : FVec F S128x128 .f32) (main_arg3 : FVec F S128 .f32) (main_arg4 : FVec F S128x64 .f32) (main_arg5 : FVec F S64 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩
abbrev S1x1 : Shape := ⟨2, ![1, 1]⟩
abbrev S100000x64 : Shape := ⟨2, ![100000, 64]⟩
abbrev S10000x64 : Shape := ⟨2, ![10000, 64]⟩
abbrev S700000x64 : Shape := ⟨2, ![700000, 64]⟩
abbrev S1x64 : Shape := ⟨2, ![1, 64]⟩

abbrev nBuf : Space → Nat
  | .hbm => 86
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1, .f32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S100000x128, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x1, .f32⟩
  | .hbm, ⟨58, _⟩ => ⟨S700000x128, .f32⟩
  | .hbm, ⟨59, _⟩ => ⟨S700000x128, .f32⟩
  | .hbm, ⟨60, _⟩ => ⟨S_, .f32⟩
  | .hbm, ⟨61, _⟩ => ⟨S100000x128, .f32⟩
  | .hbm, ⟨62, _⟩ => ⟨S700000x1, .i32⟩
  | .hbm, ⟨63, _⟩ => ⟨S100000x128, .f32⟩
  | .hbm, ⟨64, _⟩ => ⟨S1x128, .f32⟩
  | .hbm, ⟨65, _⟩ => ⟨S1x1, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S700000, .i32⟩
  | .hbm, ⟨70, _⟩ => ⟨S700000, .i1⟩
  | .hbm, ⟨71, _⟩ => ⟨S_, .i32⟩
  | .hbm, ⟨72, _⟩ => ⟨S700000, .i32⟩
  | .hbm, ⟨73, _⟩ => ⟨S700000, .i32⟩
  | .hbm, ⟨74, _⟩ => ⟨S700000, .i32⟩
  | .hbm, ⟨75, _⟩ => ⟨S700000x1, .i32⟩
  | .hbm, ⟨76, _⟩ => ⟨S700000x64, .f32⟩
  | .hbm, ⟨77, _⟩ => ⟨S700000x1, .f32⟩
  | .hbm, ⟨78, _⟩ => ⟨S700000x64, .f32⟩
  | .hbm, ⟨79, _⟩ => ⟨S700000x64, .f32⟩
  | .hbm, ⟨80, _⟩ => ⟨S_, .f32⟩
  | .hbm, ⟨81, _⟩ => ⟨S100000x64, .f32⟩
  | .hbm, ⟨82, _⟩ => ⟨S700000x1, .i32⟩
  | .hbm, ⟨83, _⟩ => ⟨S100000x64, .f32⟩
  | .hbm, ⟨84, _⟩ => ⟨S1x64, .f32⟩
  | .hbm, ⟨85, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S1_S1x1 : S1.ShapeCasts S1x1
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S10000x128_S128x64_S10000x64_1_0_0_1_n_n_wf : DotDims.WF S10000x128 S128x64 S10000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S1x1 : Shape := ⟨2, ![1, 1]⟩
abbrev S100000x64 : Shape := ⟨2, ![100000, 64]⟩
abbrev S700000x64 : Shape := ⟨2, ![700000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1, .f32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S100000x128, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x1, .f32⟩
  | .hbm, ⟨58, _⟩ => ⟨S700000x128, .f32⟩
  | .hbm, ⟨59, _⟩ => ⟨S700000x128, .f32⟩
  | .hbm, ⟨60, _⟩ => ⟨S_, .f32⟩
  | .hbm, ⟨61, _⟩ => ⟨S100000x128, .f32⟩
  | .hbm, ⟨62, _⟩ => ⟨S700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .i1⟩
  | .hbm, ⟨70, _⟩ => ⟨S1x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S700000, .i32⟩
  | .hbm, ⟨77, _⟩ => ⟨S700000, .i1⟩
  | .hbm, ⟨78, _⟩ => ⟨S_, .i32⟩
  | .hbm, ⟨79, _⟩ => ⟨S700000, .i32⟩
  | .hbm, ⟨80, _⟩ => ⟨S700000, .i32⟩
  | .hbm, ⟨81, _⟩ => ⟨S700000, .i32⟩
  | .hbm, ⟨82, _⟩ => ⟨S700000x1, .i32⟩
  | .hbm, ⟨83, _⟩ => ⟨S700000x64, .f32⟩
  | .hbm, ⟨84, _⟩ => ⟨S700000x1, .f32⟩
  | .hbm, ⟨85, _⟩ => ⟨S700000x64, .f32⟩
  | .hbm, ⟨86, _⟩ => ⟨S700000x64, .f32⟩
  | .hbm, ⟨87, _⟩ => ⟨S_, .f32⟩
  | .hbm, ⟨88, _⟩ => ⟨S100000x64, .f32⟩
  | .hbm, ⟨89, _⟩ => ⟨S700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

class Facts : Prop extends Facts₀ where

variable [Facts]
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibGraphLayer.lean ====
/-
  The three dense stages of a two-layer graph convolution, as functions of whole arrays on the extended reals, and
  the fact that lets a node-tiled program compute them: each stage treats the rows of its matrix operand
  independently, so running it on a block of rows gives that block of rows of the result.

    dense X W      = X·W                                   (entry (r,q): Σ_k X(r,k)·W(k,q))
    biasPrelu X b a = prelu_a (X + b)                      (entry (r,q): v ≥ 0 ? v : a·v with v = X(r,q) + b(q))
    biasAdd X b    = X + b                                 (entry (r,q): X(r,q) + b(q))

  The bias is a vector along the columns and the slope a one-element vector. A block of rows is given by any map
  `row` from the block's row numbers to the matrix's. Nothing of real arithmetic is used (the product needs only
  0 + x = x), so every statement holds at the infinities too; a change of float format is the identity here.
-/
import Idealize.ShloMosaic.Lib.ValueIdx
import Idealize.ShloMosaic.Lib.ValueLayout
import Idealize.ShloMosaic.Lib.Pipeline.Value
import Idealize.ShloMosaic.PureOps.Ideal.Laws
import proofs.«101670_j87316685127961_1_alg».proof.Proof.LibRowBlockDot

noncomputable section

namespace Cert.GraphLayer

open Idealize.ShloMosaic Idealize.ShloMosaic.ValueIdx

variable {M m K N : Nat}

/-- The product of whole matrices. -/
def dense (X : FVec Ideal ⟨2, ![M, K]⟩ .f32) (W : FVec Ideal ⟨2, ![K, N]⟩ .f32) : FVec Ideal ⟨2, ![M, N]⟩ .f32 :=
  Host.dotGeneral (DotDims.plain M K N) none X W

/-- One entry of bias-then-PReLU: v ≥ 0 ? v : a·v. -/
def prelu1 (a v : Ideal .f32) : Ideal .f32 :=
  Scalar.select (FloatOps.cmpf .oge v (Scalar.ofBits (F := Ideal) .f32 0x00000000#32)) v (a * v)

/-- Bias along the columns, then PReLU with the one slope `a`. -/
def biasPrelu (X : FVec Ideal ⟨2, ![M, N]⟩ .f32) (b : FVec Ideal ⟨1, ![N]⟩ .f32) (a : FVec Ideal ⟨1, ![1]⟩ .f32) :
    FVec Ideal ⟨2, ![M, N]⟩ .f32 :=
  fun i => prelu1 (a (ix1 (0 : Fin 1))) (X i + b (ix1 ⟨(i 1).val, (i 1).isLt⟩))

/-- Bias along the columns. -/
def biasAdd (X : FVec Ideal ⟨2, ![M, N]⟩ .f32) (b : FVec Ideal ⟨1, ![N]⟩ .f32) : FVec Ideal ⟨2, ![M, N]⟩ .f32 :=
  fun i => X i + b (ix1 ⟨(i 1).val, (i 1).isLt⟩)

theorem biasPrelu_ix2 (X : FVec Ideal ⟨2, ![M, N]⟩ .f32) (b : FVec Ideal ⟨1, ![N]⟩ .f32) (a : FVec Ideal ⟨1, ![1]⟩ .f32)
    (r : Fin M) (q : Fin N) : biasPrelu X b a (ix2 r q) = prelu1 (a (ix1 (0 : Fin 1))) (X (ix2 r q) + b (ix1 q)) := rfl

theorem biasAdd_ix2 (X : FVec Ideal ⟨2, ![M, N]⟩ .f32) (b : FVec Ideal ⟨1, ![N]⟩ .f32) (r : Fin M) (q : Fin N) :
    biasAdd X b (ix2 r q) = X (ix2 r q) + b (ix1 q) := rfl

/-! ## A block of rows -/

/-- The product of a block of rows of `X` with `W`, both narrowed to another float format first and accumulated into
    the zero block, is that block of rows of `X·W`. -/
theorem dense_rows (row : Fin m → Fin M) (X : FVec Ideal ⟨2, ![M, K]⟩ .f32) (W : FVec Ideal ⟨2, ![K, N]⟩ .f32)
    (A : FVec Ideal ⟨2, ![m, K]⟩ .f32) (B : FVec Ideal ⟨2, ![K, N]⟩ .f32)
    (D : DotDims ⟨2, ![m, K]⟩ ⟨2, ![K, N]⟩ ⟨2, ![m, N]⟩) (hD : D = DotDims.plain m K N)
    (hA : ∀ a c, A (ix2 a c) = X (ix2 (row a) c)) (hB : ∀ c b, B (ix2 c b) = W (ix2 c b))
    {χ : FTy} (hχ : χ.bits < FTy.f32.bits)
    (j : (⟨2, ![m, N]⟩ : Shape).Idx) (i : (⟨2, ![M, N]⟩ : Shape).Idx)
    (h0 : (i 0).val = (row (j 0)).val) (h1 : (i 1).val = (j 1).val) :
    matmul D none (truncf χ A hχ) (truncf χ B hχ) (constant (F := Ideal) ⟨2, ![m, N]⟩ .f32 0x00000000#32) j
      = dense X W i := by
  subst hD
  exact Cert.LibRowBlockDot.matmul_rowBlock_apply_idx none none X W (truncf χ A hχ) (truncf χ B hχ) row
    (fun a c => hA a c) (fun c b => hB c b) j i h0 h1

/-- Bias and PReLU on a block of rows, the bias given as one row [1,N] and the slope as one cell [1,1] (what a
    tiled program stages), is that block of rows of `biasPrelu`. -/
theorem biasPrelu_rows (row : Fin m → Fin M) (X : FVec Ideal ⟨2, ![M, N]⟩ .f32) (b : FVec Ideal ⟨1, ![N]⟩ .f32)
    (a : FVec Ideal ⟨1, ![1]⟩ .f32)
    (A : FVec Ideal ⟨2, ![m, N]⟩ .f32) (B : FVec Ideal ⟨2, ![1, N]⟩ .f32) (C : FVec Ideal ⟨2, ![1, 1]⟩ .f32)
    (hA : ∀ r q, A (ix2 r q) = X (ix2 (row r) q)) (hB : ∀ q, B (ix2 (0 : Fin 1) q) = b (ix1 q))
    (hC : C (ix2 (0 : Fin 1) (0 : Fin 1)) = a (ix1 (0 : Fin 1)))
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    prelu1 (C (ix2 (0 : Fin 1) (0 : Fin 1))) (A j + broadcastTo ⟨2, ![m, N]⟩ B hbc j) = biasPrelu X b a i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasPrelu_ix2, broadcastTo_1b_ab_apply, hA, hB, hC]

/-- A bias on a block of rows, the bias given as one row [1,N], is that block of rows of `biasAdd`. -/
theorem biasAdd_rows (row : Fin m → Fin M) (X : FVec Ideal ⟨2, ![M, N]⟩ .f32) (b : FVec Ideal ⟨1, ![N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = b (ix1 q))
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    A j + broadcastTo ⟨2, ![m, N]⟩ B hbc j = biasAdd X b i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasAdd_ix2, broadcastTo_1b_ab_apply, hA, hB]

end Cert.GraphLayer

end
-- ==== Proof.RefStages.lean ====
/-
  The reference's result, cut into its stages.

  The reference computes, from the node features x [100000,128], the edge list e [2,600000], the weights W1, W2, the
  biases b1, b2 and the PReLU slope a:

    src, dst  = the edges' end points with one self-loop per node appended                     (700000 entries each)
    deg       = the number of edges entering each node;  dinv = deg > 0 ? deg^(-1/2) : 0
    norm      = dinv[src] · dinv[dst]                                                          (one weight per edge)
    agg h     = for every node the sum, over the edges entering it, of norm(edge) · h[src(edge)]
    out       = agg (prelu_a (agg (x·W1) + b1) · W2) + b2

  Each stage is named here as a function of its operands, with the reference's own dimension records; `res_eq` says
  the reference's composed term is their composition. The aggregation is kept as ONE function of the matrix it
  aggregates and of the three edge vectors: nothing below looks inside a gather or a scatter. At the extended reals
  the three dense stages are the layer functions of Proof/LibGraphLayer.lean.
-/
import proofs.«101670_j87316685127961_1_alg».proof.Proof.RefRunP
import proofs.«101670_j87316685127961_1_alg».proof.Proof.LibGraphLayer

noncomputable section

namespace Cert.ReferenceIdeal.Stages

open Cert.ReferenceIdeal Cert.ReferenceIdeal.Gen Idealize.ShloMosaic Idealize.ShloMosaic.TcCoe Idealize.ShloMosaic.ValueIdx

variable {F : FTy → Type} [FloatOps F]

/-- Row `k` of the edge list followed by 0, 1, …, 99999: every node gets a self-loop. -/
def ends (k : Nat) (hs : S2x600000.Slices ![k, 0] S1x600000) (e : (⟨S2x600000, .i32⟩ : BufTy).Contents (Elt F)) :
    (⟨S700000, .i32⟩ : BufTy).Contents (Elt F) :=
  concatenate S700000 0 [⟨S600000, (shapeCast _ (extractStridedSlice S1x600000 ![k, 0] e hs) shapeCasts_S1x600000_S600000)⟩, ⟨S100000, (iotaInDim S100000 32 0)⟩] concatenates_S600000_S100000_S700000_d0

/-- The edges' sources. -/
def srcOf (e : (⟨S2x600000, .i32⟩ : BufTy).Contents (Elt F)) : (⟨S700000, .i32⟩ : BufTy).Contents (Elt F) :=
  ends 0 slices_S2x600000_S1x600000_0_0 e

/-- The edges' destinations. -/
def dstOf (e : (⟨S2x600000, .i32⟩ : BufTy).Contents (Elt F)) : (⟨S700000, .i32⟩ : BufTy).Contents (Elt F) :=
  ends 1 slices_S2x600000_S1x600000_1_0 e

/-- A vector of node numbers as a column of gather indices, a negative number counted from the end. -/
def wrapCol (v : (⟨S700000, .i32⟩ : BufTy).Contents (Elt F)) : (⟨S700000x1, .i32⟩ : BufTy).Contents (Elt F) :=
  broadcastInDim S700000x1 ![0] bcast_S700000_S700000x1_0 (select (cmpi .slt v (broadcastInDim S700000 ![] bcast_S_S700000 (constantI S_ 32 0#32))) (addi v (broadcastInDim S700000 ![] bcast_S_S700000 (constantI S_ 32 100000#32))) v)

/-- The number of edges entering each node. -/
def deg (dst : (⟨S700000, .i32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (broadcastInDim S700000x1 ![0] bcast_S700000_S700000x1_0 dst) (broadcastInDim S700000 ![] bcast_S_S700000 (constant S_ .f32 0x3F800000#32))

/-- deg > 0 ? deg^(-1/2) : 0. -/
def dinv (dst : (⟨S700000, .i32⟩ : BufTy).Contents (Elt F)) : (⟨S100000, .f32⟩ : BufTy).Contents (Elt F) :=
  select (cmpf (F := F) .ogt (deg dst) (broadcastInDim S100000 ![] bcast_S_S100000 (constant S_ .f32 0x00000000#32))) (Host.rsqrt (deg dst)) (broadcastInDim S100000 ![] bcast_S_S100000 (id (constant S_ .f32 0x00000000#32)))

/-- One weight per edge from a vector of node weights: the weight at its source times the weight at its destination. -/
def normOf (dv : (⟨S100000, .f32⟩ : BufTy).Contents (Elt F)) (src dst : (⟨S700000, .i32⟩ : BufTy).Contents (Elt F)) :
    (⟨S700000, .f32⟩ : BufTy).Contents (Elt F) :=
  mulf (Host.gather gather_S100000_S700000x1_S700000_n_0_n_n_0_1_1 dv (wrapCol src)) (Host.gather gather_S100000_S700000x1_S700000_n_0_n_n_0_1_1 dv (wrapCol dst))

/-- The edge weights: dinv at the source times dinv at the destination. -/
def norm (src dst : (⟨S700000, .i32⟩ : BufTy).Contents (Elt F)) : (⟨S700000, .f32⟩ : BufTy).Contents (Elt F) :=
  normOf (dinv dst) src dst

/-- Weighted aggregation over incoming edges of a [100000,128] matrix. -/
def agg128 (h : (⟨S100000x128, .f32⟩ : BufTy).Contents (Elt F)) (src dst : (⟨S700000, .i32⟩ : BufTy).Contents (Elt F))
    (w : (⟨S700000, .f32⟩ : BufTy).Contents (Elt F)) : (⟨S100000x128, .f32⟩ : BufTy).Contents (Elt F) :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 dst) (mulf (Host.gather gather_S100000x128_S700000x1_S700000x128_1_0_n_n_0_1_1128 h (wrapCol src)) (broadcastInDim S700000x128 ![0, 1] bcast_S700000x1_S700000x128_0_1 (broadcastInDim S700000x1 ![0] bcast_S700000_S700000x1_0 w)))

/-- Weighted aggregation over incoming edges of a [100000,64] matrix. -/
def agg64 (h : (⟨S100000x64, .f32⟩ : BufTy).Contents (Elt F)) (src dst : (⟨S700000, .i32⟩ : BufTy).Contents (Elt F))
    (w : (⟨S700000, .f32⟩ : BufTy).Contents (Elt F)) : (⟨S100000x64, .f32⟩ : BufTy).Contents (Elt F) :=
  Host.scatterAdd scatter_S100000x64_S700000x1_S700000x64_1_0_0_1 (broadcastInDim S100000x64 ![] bcast_S_S100000x64 (constant S_ .f32 0x00000000#32)) (broadcastInDim S700000x1 ![0] bcast_S700000_S700000x1_0 dst) (mulf (Host.gather gather_S100000x64_S700000x1_S700000x64_1_0_n_n_0_1_164 h (wrapCol src)) (broadcastInDim S700000x64 ![0, 1] bcast_S700000x1_S700000x64_0_1 (broadcastInDim S700000x1 ![0] bcast_S700000_S700000x1_0 w)))

/-- x·W1. -/
def lin128 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- h·W2. -/
def lin64 (h : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none h w

/-- v + b1 along the columns. -/
def plus128 (v : (⟨S100000x128, .f32⟩ : BufTy).Contents (Elt F)) (b : (⟨S128, .f32⟩ : BufTy).Contents (Elt F)) :
    (⟨S100000x128, .f32⟩ : BufTy).Contents (Elt F) :=
  addf v (broadcastInDim S100000x128 ![0, 1] bcast_S1x128_S100000x128_0_1 (broadcastInDim S1x128 ![1] bcast_S128_S1x128_1 b))

/-- PReLU of v + b1 with the one slope a. -/
def act (v : (⟨S100000x128, .f32⟩ : BufTy).Contents (Elt F)) (b : (⟨S128, .f32⟩ : BufTy).Contents (Elt F))
    (a : (⟨S1, .f32⟩ : BufTy).Contents (Elt F)) : (⟨S100000x128, .f32⟩ : BufTy).Contents (Elt F) :=
  select (cmpf .oge (plus128 v b) (broadcastInDim S100000x128 ![] bcast_S_S100000x128 (constant S_ .f32 0x00000000#32))) (plus128 v b) (mulf (broadcastInDim S100000x128 ![0, 1] bcast_S1x1_S100000x128_0_1 (broadcastInDim S1x1 ![1] bcast_S1_S1x1_1 a)) (plus128 v b))

/-- v + b2 along the columns. -/
def plus64 (v : (⟨S100000x64, .f32⟩ : BufTy).Contents (Elt F)) (b : (⟨S64, .f32⟩ : BufTy).Contents (Elt F)) :
    (⟨S100000x64, .f32⟩ : BufTy).Contents (Elt F) :=
  addf v (broadcastInDim S100000x64 ![0, 1] bcast_S1x64_S100000x64_0_1 (broadcastInDim S1x64 ![1] bcast_S64_S1x64_1 b))

/-- The whole network, given the three edge vectors. -/
def net (x : (⟨S100000x128, .f32⟩ : BufTy).Contents (Elt F)) (src dst : (⟨S700000, .i32⟩ : BufTy).Contents (Elt F))
    (w : (⟨S700000, .f32⟩ : BufTy).Contents (Elt F)) (w1 : (⟨S128x128, .f32⟩ : BufTy).Contents (Elt F))
    (b1 : (⟨S128, .f32⟩ : BufTy).Contents (Elt F)) (w2 : (⟨S128x64, .f32⟩ : BufTy).Contents (Elt F))
    (b2 : (⟨S64, .f32⟩ : BufTy).Contents (Elt F)) (a : (⟨S1, .f32⟩ : BufTy).Contents (Elt F)) :
    (⟨S100000x64, .f32⟩ : BufTy).Contents (Elt F) :=
  plus64 (agg64 (lin64 (act (agg128 (lin128 x w1) src dst w) b1 a) w2) src dst w) b2

/-- The reference's result is the network on the edge vectors computed from the edge list. -/
theorem res_eq (m : (ℓ : Loc nD τ sig) → Buf (Elt F) ℓ) (c : Dev nD) :
    Cert.ReferenceIdeal.ValueP.res_main_v69 m c
      = net (m ((c.tc : Thread nD τ).loc main_arg0)) (srcOf (m ((c.tc : Thread nD τ).loc main_arg1)))
          (dstOf (m ((c.tc : Thread nD τ).loc main_arg1)))
          (norm (srcOf (m ((c.tc : Thread nD τ).loc main_arg1))) (dstOf (m ((c.tc : Thread nD τ).loc main_arg1))))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.ValueP.res_main_v69 net plus64 agg64 lin64 act plus128 agg128 lin128 norm normOf dinv deg wrapCol srcOf dstOf ends
  rfl

end Cert.ReferenceIdeal.Stages

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.RefLayers.lean ====
/-
  At the extended reals the reference's three dense stages are the layer functions of whole arrays.

  The reference's matrix products carry the plain dimension record, so they are `dense`. Its bias is the vector laid
  along one row and that row repeated down the rows, so adding it is `biasAdd`; its slope is the one-element vector
  made one cell and that cell repeated over the whole matrix, and its PReLU selects v where v ≥ 0 and a·v elsewhere,
  so the first layer's tail is `biasPrelu`. The network is then the same composition, with the aggregation kept as
  the reference's own function of the matrix and of the three edge vectors.
-/
import proofs.«101670_j87316685127961_1_alg».proof.Proof.RefStages
import proofs.«101670_j87316685127961_1_alg».proof.Proof.LibHostReads

noncomputable section

namespace Cert.ReferenceIdeal.Layers

open Cert.ReferenceIdeal Cert.ReferenceIdeal.Gen Cert.ReferenceIdeal.Stages
open Idealize.ShloMosaic Idealize.ShloMosaic.TcCoe Idealize.ShloMosaic.ValueIdx

theorem lin128_eq (x : FVec Ideal S100000x128 .f32) (w : FVec Ideal S128x128 .f32) :
    lin128 (F := Ideal) x w = Cert.GraphLayer.dense (M := 100000) (K := 128) (N := 128) x w := rfl

theorem lin64_eq (x : FVec Ideal S100000x128 .f32) (w : FVec Ideal S128x64 .f32) :
    lin64 (F := Ideal) x w = Cert.GraphLayer.dense (M := 100000) (K := 128) (N := 64) x w := rfl

/-- A one-element vector made one cell and repeated over the matrix reads the element everywhere. -/
theorem slope_apply (a : FVec Ideal S1 .f32) (r : Fin 100000) (q : Fin 128) :
    broadcastInDim S100000x128 ![0, 1] bcast_S1x1_S100000x128_0_1 (broadcastInDim S1x1 ![1] bcast_S1_S1x1_1 a) (ix2 r q)
      = a (ix1 (0 : Fin 1)) := by
  rw [broadcastInDim_apply _ bcast_S1x1_S100000x128_0_1 _ (ix2 r q) (ix2 (0 : Fin 1) (0 : Fin 1)) (fun d => match d with
      | ⟨0, _⟩ => by show 0 = if (1 : Nat) = 1 then 0 else r.val; rw [if_pos rfl]
      | ⟨1, _⟩ => by show 0 = if (1 : Nat) = 1 then 0 else q.val; rw [if_pos rfl]),
    broadcastInDim_apply _ bcast_S1_S1x1_1 a (ix2 (0 : Fin 1) (0 : Fin 1)) (ix1 (0 : Fin 1)) (fun d => match d with
      | ⟨0, _⟩ => by show 0 = if (1 : Nat) = 1 then 0 else 0; rw [if_pos rfl])]

theorem act_eq (v : FVec Ideal S100000x128 .f32) (b : FVec Ideal S128 .f32) (a : FVec Ideal S1 .f32) :
    act (F := Ideal) v b a = Cert.GraphLayer.biasPrelu (M := 100000) (N := 128) v b a := by
  funext i
  obtain ⟨r, q, rfl⟩ : ∃ (r : Fin 100000) (q : Fin 128), i = ix2 r q := ⟨i 0, i 1, eq_ix2 i⟩
  unfold act plus128
  rw [select_apply, cmpf_apply, mulf_apply, addf_apply,
    Cert.LibHostReads.rowBias_apply (by decide) bcast_S128_S1x128_1 bcast_S1x128_S100000x128_0_1 b r q,
    Cert.LibHostReads.splat_apply, slope_apply]
  rfl

theorem plus64_eq (v : FVec Ideal S100000x64 .f32) (b : FVec Ideal S64 .f32) :
    plus64 (F := Ideal) v b = Cert.GraphLayer.biasAdd (M := 100000) (N := 64) v b := by
  funext i
  obtain ⟨r, q, rfl⟩ : ∃ (r : Fin 100000) (q : Fin 64), i = ix2 r q := ⟨i 0, i 1, eq_ix2 i⟩
  unfold plus64
  rw [addf_apply, Cert.LibHostReads.rowBias_apply (by decide) bcast_S64_S1x64_1 bcast_S1x64_S100000x64_0_1 b r q]
  rfl

/-- The network over the layer functions, given the three edge vectors. -/
def netL (x : FVec Ideal S100000x128 .f32) (src dst : (⟨S700000, .i32⟩ : BufTy).Contents (Elt Ideal))
    (w : FVec Ideal S700000 .f32) (w1 : FVec Ideal S128x128 .f32) (b1 : FVec Ideal S128 .f32)
    (w2 : FVec Ideal S128x64 .f32) (b2 : FVec Ideal S64 .f32) (a : FVec Ideal S1 .f32) : FVec Ideal S100000x64 .f32 :=
  Cert.GraphLayer.biasAdd (M := 100000) (N := 64)
    (agg64 (F := Ideal)
      (Cert.GraphLayer.dense (M := 100000) (K := 128) (N := 64)
        (Cert.GraphLayer.biasPrelu (M := 100000) (N := 128)
          (agg128 (F := Ideal) (Cert.GraphLayer.dense (M := 100000) (K := 128) (N := 128) x w1) src dst w) b1 a) w2)
      src dst w) b2

theorem net_eq (x : FVec Ideal S100000x128 .f32) (src dst : (⟨S700000, .i32⟩ : BufTy).Contents (Elt Ideal))
    (w : FVec Ideal S700000 .f32) (w1 : FVec Ideal S128x128 .f32) (b1 : FVec Ideal S128 .f32)
    (w2 : FVec Ideal S128x64 .f32) (b2 : FVec Ideal S64 .f32) (a : FVec Ideal S1 .f32) :
    net (F := Ideal) x src dst w w1 b1 w2 b2 a = netL x src dst w w1 b1 w2 b2 a := by
  unfold net netL
  rw [lin128_eq, act_eq, lin64_eq, plus64_eq]

end Cert.ReferenceIdeal.Layers

end
-- ==== Proof.KernelRun.lean ====
/-
  The idealized kernel's run, with its result named.

  @main is nine segments: three stretches of host operations, the first dense stage as a tiled region, a stretch, the
  bias-and-PReLU region, the second dense region, a stretch, the final bias region. The buffer contents at the nine
  boundaries are a fold from the launch memory (`Gen.W0` … `Gen.W9`), and after the last segment every buffer that
  outlives a region holds `Gen.W9`'s contents. So every weakly fair execution terminates, without a fault, with the
  result buffer at `Gen.W9 … main_v62` and the seven arguments as launched. What `W9` holds at the result is read
  off the fold in Proof/KernelValue.lean.
-/
import proofs.«101670_j87316685127961_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched: the launch over the nine segments, the last thread state read against the
    final state. -/
theorem run_out : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Run

end
-- ==== Proof.Region0.lean ====
/-
  Region 0 of the idealized kernel: x·W1, tiled over the nodes.

  The region's grid has ten points. At point t the first window stages rows 10000·t … 10000·t + 9999 of the
  [100000,128] operand, the second window the whole [128,128] weight matrix, and the body stores into the
  output window's block the product of the two staged blocks (narrowed to bf16 first, accumulated in f32 from zero — at
  the extended reals the plain product). Row r of a product depends on row r of the left operand alone, so what point
  t writes back is rows 10000·t … of the whole product; the ten blocks tile the output array; so the array ends
  holding the whole product of the arrays as the region found them.
-/
import proofs.«101670_j87316685127961_1_alg».proof.Proof.Gen.KernelIdeal.Frame
import proofs.«101670_j87316685127961_1_alg».proof.Proof.LibGraphLayer

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the weights at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The body's stored value on a block of rows of `X` and the whole of `W`, at an entry, is the whole product at
    the entry the block's row stands for. -/
theorem pay_at (X : FVec Ideal S100000x128 .f32) (W : FVec Ideal S128x128 .f32)
    (x0 : Vec Ideal S10000x128 .f32) (x1 : Vec Ideal S128x128 .f32) (row : Fin 10000 → Fin 100000)
    (h0 : ∀ (a : Fin 10000) (k : Fin 128), x0 (ix2 a k) = X (ix2 (row a) k))
    (h1 : ∀ (k : Fin 128) (b : Fin 128), x1 (ix2 k b) = W (ix2 k b))
    (j : S10000x128.Idx) (i : S100000x128.Idx) (e0 : (i 0).val = (row (j 0)).val) (e1 : (i 1).val = (j 1).val) :
    k0_pay1 x0 x1 j = Cert.GraphLayer.dense (M := 100000) (K := 128) (N := 128) X W i := by
  unfold k0_pay1
  exact Cert.GraphLayer.dense_rows row X W x0 x1 _ rfl h0 h1 _ j i e0 e1

/-- What point t writes back is block t of the whole product of the arrays as the region finds them. -/
theorem flushed_eq (c : Dev nD) (t : Fin cfg0.N) :
    (dat0 V c).flushed 2 t = ((cfg0.win 2).blk t).view.read (Elt Ideal)
      (Cert.GraphLayer.dense (M := 100000) (K := 128) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5, ht⟩ := idx_facts t
  funext j
  have hj0 : (j 0).val < 10000 := (j 0).isLt
  show k0_pay1 (iblk0 V c 0 t) (iblk0 V c 1 t) j
    = Cert.GraphLayer.dense (M := 100000) (K := 128) (N := 128) (V c main_arg0) (V c main_arg2) (((cfg0.win 2).blk t).view.emb j)
  refine pay_at (V c main_arg0) (V c main_arg2) (iblk0 V c 0 t) (iblk0 V c 1 t)
    (fun a => ⟨t.val * 10000 + a.val, by have := a.isLt; omega⟩) ?_ ?_ j (((cfg0.win 2).blk t).view.emb j) ?_ ?_
  · intro a k
    show V c main_arg0 (((cfg0.win 0).blk t).view.emb (ix2 a k)) = V c main_arg0 (ix2 ⟨t.val * 10000 + a.val, _⟩ k)
    refine congrArg (V c main_arg0) ?_
    funext d; apply Fin.ext
    match d with
    | ⟨0, _⟩ => show win0_0.index t (0 : Fin 2) * 10000 + 1 * a.val = t.val * 10000 + a.val; omega
    | ⟨1, _⟩ => show win0_0.index t (1 : Fin 2) * 128 + 1 * k.val = k.val; omega
  · intro k b
    show V c main_arg2 (((cfg0.win 1).blk t).view.emb (ix2 k b)) = V c main_arg2 (ix2 k b)
    refine congrArg (V c main_arg2) ?_
    funext d; apply Fin.ext
    match d with
    | ⟨0, _⟩ => show win0_1.index t (0 : Fin 2) * 128 + 1 * k.val = k.val; omega
    | ⟨1, _⟩ => show win0_1.index t (1 : Fin 2) * 128 + 1 * b.val = b.val; omega
  · show win0_2.index t (0 : Fin 2) * 10000 + 1 * (j 0).val = t.val * 10000 + (j 0).val; omega
  · show win0_2.index t (1 : Fin 2) * 128 + 1 * (j 1).val = (j 1).val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Every entry of the output array is in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  have htv : t.val = (i 0).val / 10000 := rfl
  obtain ⟨e0, e1, e2, e3, e4, e5, ht⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array after the region: the whole product of the two arrays as the region found them. -/
theorem arr (c : Dev nD) : (dat0 V c).arrAt 2 cfg0.N
    = Cert.GraphLayer.dense (M := 100000) (K := 128) (N := 128) (V c main_arg0) (V c main_arg2) :=
  (dat0 V c).arrAt_eq_of_cover 2 _ (fun t _ => flushed_eq V c t) cover

end Cert.KernelIdeal.Region0

end
-- ==== Proof.Region1.lean ====
/-
  Region 1 of the idealized kernel: bias and PReLU, tiled over the nodes.

  The region's grid has ten points. At point t the first window stages rows 10000·t … 10000·t + 9999 of the
  [100000,128] operand, the second the bias as one row [1,128], the third the slope as one cell [1,1], and the body
  stores v ≥ 0 ? v : a·v with v = x + bias, entry by entry. Row r of that depends on row r of the operand alone, so
  point t writes back rows 10000·t … of the whole-array function; the ten blocks tile the output array.
-/
import proofs.«101670_j87316685127961_1_alg».proof.Proof.Gen.KernelIdeal.Frame
import proofs.«101670_j87316685127961_1_alg».proof.Proof.LibGraphLayer

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the bias and the slope at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The body's stored value at an entry: PReLU, with the staged cell as slope, of the staged entry plus the staged
    bias row laid along the rows. -/
theorem pay_apply (x0 : Vec Ideal S10000x128 .f32) (x1 : Vec Ideal S1x128 .f32) (x2 : Vec Ideal S1x1 .f32) (j : S10000x128.Idx) :
    k1_pay1 x0 x1 x2 j = Cert.GraphLayer.prelu1 (x2 (ix2 (0 : Fin 1) (0 : Fin 1)))
      (x0 j + broadcastTo S10000x128 x1 broadcasts_S1x128_S10000x128 j) := by
  unfold k1_pay1
  rw [shapeCast_self, shapeCast_self]
  have hx : extractAt ![0, 0] x2 inpos_S1x1_p0_0 = x2 (ix2 (0 : Fin 1) (0 : Fin 1)) :=
    congrArg x2 (funext fun a => by match a with | ⟨0, _⟩ => rfl | ⟨1, _⟩ => rfl)
  rw [hx]
  rfl

/-- The same on a block of rows of `X`, with the bias row and the slope cell holding the vector `b` and the
    one-element vector `a`: the whole-array function at the entry the block's row stands for. -/
theorem pay_at (X : FVec Ideal S100000x128 .f32) (b : FVec Ideal S128 .f32) (a : FVec Ideal S1 .f32)
    (x0 : Vec Ideal S10000x128 .f32) (x1 : Vec Ideal S1x128 .f32) (x2 : Vec Ideal S1x1 .f32) (row : Fin 10000 → Fin 100000)
    (h0 : ∀ (r : Fin 10000) (q : Fin 128), x0 (ix2 r q) = X (ix2 (row r) q))
    (h1 : ∀ q : Fin 128, x1 (ix2 (0 : Fin 1) q) = b (ix1 q))
    (h2 : x2 (ix2 (0 : Fin 1) (0 : Fin 1)) = a (ix1 (0 : Fin 1)))
    (j : S10000x128.Idx) (i : S100000x128.Idx) (e0 : (i 0).val = (row (j 0)).val) (e1 : (i 1).val = (j 1).val) :
    k1_pay1 x0 x1 x2 j = Cert.GraphLayer.biasPrelu (M := 100000) (N := 128) X b a i := by
  rw [pay_apply]
  exact Cert.GraphLayer.biasPrelu_rows row X b a x0 x1 x2 h0 h1 h2 broadcasts_S1x128_S10000x128 j i e0 e1

/-- What point t writes back is block t of the whole-array function of the arrays as the region finds them, the
    bias row and the slope cell read as the vectors `b` and `a` they hold. -/
theorem flushed_eq (c : Dev nD) (b : FVec Ideal S128 .f32) (a : FVec Ideal S1 .f32)
    (hb : ∀ q : Fin 128, V c main_v44 (ix2 (0 : Fin 1) q) = b (ix1 q))
    (ha : V c main_v45 (ix2 (0 : Fin 1) (0 : Fin 1)) = a (ix1 (0 : Fin 1))) (t : Fin cfg1.N) :
    (dat1 V c).flushed 3 t = ((cfg1.win 3).blk t).view.read (Elt Ideal)
      (Cert.GraphLayer.biasPrelu (M := 100000) (N := 128) (V c main_v43) b a) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S1x1) hz]
  obtain ⟨e0, e1, e2, e3, e4, e5, e6, e7, ht⟩ := idx_facts t
  funext j
  have hj0 : (j 0).val < 10000 := (j 0).isLt
  show k1_pay1 (iblk1 V c 0 t) (iblk1 V c 1 t) (iblk1 V c 2 t) j
    = Cert.GraphLayer.biasPrelu (M := 100000) (N := 128) (V c main_v43) b a (((cfg1.win 3).blk t).view.emb j)
  refine pay_at (V c main_v43) b a (iblk1 V c 0 t) (iblk1 V c 1 t) (iblk1 V c 2 t)
    (fun r => ⟨t.val * 10000 + r.val, by have := r.isLt; omega⟩) ?_ ?_ ?_ j (((cfg1.win 3).blk t).view.emb j) ?_ ?_
  · intro r q
    show V c main_v43 (((cfg1.win 0).blk t).view.emb (ix2 r q)) = V c main_v43 (ix2 ⟨t.val * 10000 + r.val, _⟩ q)
    refine congrArg (V c main_v43) ?_
    funext d; apply Fin.ext
    match d with
    | ⟨0, _⟩ => show win1_0.index t (0 : Fin 2) * 10000 + 1 * r.val = t.val * 10000 + r.val; omega
    | ⟨1, _⟩ => show win1_0.index t (1 : Fin 2) * 128 + 1 * q.val = q.val; omega
  · intro q
    refine Eq.trans ?_ (hb q)
    show V c main_v44 (((cfg1.win 1).blk t).view.emb (ix2 (0 : Fin 1) q)) = V c main_v44 (ix2 (0 : Fin 1) q)
    refine congrArg (V c main_v44) ?_
    funext d; apply Fin.ext
    match d with
    | ⟨0, _⟩ => show win1_1.index t (0 : Fin 2) * 1 + 1 * 0 = 0; omega
    | ⟨1, _⟩ => show win1_1.index t (1 : Fin 2) * 128 + 1 * q.val = q.val; omega
  · refine Eq.trans ?_ ha
    show V c main_v45 (((cfg1.win 2).blk t).view.emb (ix2 (0 : Fin 1) (0 : Fin 1))) = V c main_v45 (ix2 (0 : Fin 1) (0 : Fin 1))
    refine congrArg (V c main_v45) ?_
    funext d; apply Fin.ext
    match d with
    | ⟨0, _⟩ => show win1_2.index t (0 : Fin 2) * 1 + 1 * 0 = 0; omega
    | ⟨1, _⟩ => show win1_2.index t (1 : Fin 2) * 1 + 1 * 0 = 0; omega
  · show win1_3.index t (0 : Fin 2) * 10000 + 1 * (j 0).val = t.val * 10000 + (j 0).val; omega
  · show win1_3.index t (1 : Fin 2) * 128 + 1 * (j 1).val = (j 1).val; omega

/-- An index of the output array is in point t's block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v46).slice (win1_3.rect t)).set ↔ _
  rw [View.set_slice_whole, Rect.mem_set_unit]
  exact Iff.rfl

/-- Every entry of the output array is in the block of the point its row falls in. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  have htv : t.val = (i 0).val / 10000 := rfl
  obtain ⟨e0, e1, e2, e3, e4, e5, e6, e7, ht⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- The output array after the region: bias and PReLU of the operand as the region found it. -/
theorem arr (c : Dev nD) (b : FVec Ideal S128 .f32) (a : FVec Ideal S1 .f32)
    (hb : ∀ q : Fin 128, V c main_v44 (ix2 (0 : Fin 1) q) = b (ix1 q))
    (ha : V c main_v45 (ix2 (0 : Fin 1) (0 : Fin 1)) = a (ix1 (0 : Fin 1))) :
    (dat1 V c).arrAt 3 cfg1.N = Cert.GraphLayer.biasPrelu (M := 100000) (N := 128) (V c main_v43) b a :=
  (dat1 V c).arrAt_eq_of_cover 3 _ (fun t _ => flushed_eq V c b a hb ha t) cover

end Cert.KernelIdeal.Region1

end
-- ==== Proof.Region2.lean ====
/-
  Region 2 of the idealized kernel: h·W2, tiled over the nodes.

  The region's grid has ten points. At point t the first window stages rows 10000·t … 10000·t + 9999 of the
  [100000,128] operand, the second window the whole [128,64] weight matrix, and the body stores into the
  output window's block the product of the two staged blocks (narrowed to bf16 first, accumulated in f32 from zero — at
  the extended reals the plain product). Row r of a product depends on row r of the left operand alone, so what point
  t writes back is rows 10000·t … of the whole product; the ten blocks tile the output array; so the array ends
  holding the whole product of the arrays as the region found them.
-/
import proofs.«101670_j87316685127961_1_alg».proof.Proof.Gen.KernelIdeal.Frame
import proofs.«101670_j87316685127961_1_alg».proof.Proof.LibGraphLayer

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the weights at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The body's stored value on a block of rows of `X` and the whole of `W`, at an entry, is the whole product at
    the entry the block's row stands for. -/
theorem pay_at (X : FVec Ideal S100000x128 .f32) (W : FVec Ideal S128x64 .f32)
    (x0 : Vec Ideal S10000x128 .f32) (x1 : Vec Ideal S128x64 .f32) (row : Fin 10000 → Fin 100000)
    (h0 : ∀ (a : Fin 10000) (k : Fin 128), x0 (ix2 a k) = X (ix2 (row a) k))
    (h1 : ∀ (k : Fin 128) (b : Fin 64), x1 (ix2 k b) = W (ix2 k b))
    (j : S10000x64.Idx) (i : S100000x64.Idx) (e0 : (i 0).val = (row (j 0)).val) (e1 : (i 1).val = (j 1).val) :
    k2_pay1 x0 x1 j = Cert.GraphLayer.dense (M := 100000) (K := 128) (N := 64) X W i := by
  unfold k2_pay1
  rw [shapeCast_self]
  exact Cert.GraphLayer.dense_rows row X W x0 x1 _ rfl h0 h1 _ j i e0 e1

/-- What point t writes back is block t of the whole product of the arrays as the region finds them. -/
theorem flushed_eq (c : Dev nD) (t : Fin cfg2.N) :
    (dat2 V c).flushed 2 t = ((cfg2.win 2).blk t).view.read (Elt Ideal)
      (Cert.GraphLayer.dense (M := 100000) (K := 128) (N := 64) (V c main_v46) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨e0, e1, e2, e3, e4, e5, ht⟩ := idx_facts t
  funext j
  have hj0 : (j 0).val < 10000 := (j 0).isLt
  show k2_pay1 (iblk2 V c 0 t) (iblk2 V c 1 t) j
    = Cert.GraphLayer.dense (M := 100000) (K := 128) (N := 64) (V c main_v46) (V c main_arg4) (((cfg2.win 2).blk t).view.emb j)
  refine pay_at (V c main_v46) (V c main_arg4) (iblk2 V c 0 t) (iblk2 V c 1 t)
    (fun a => ⟨t.val * 10000 + a.val, by have := a.isLt; omega⟩) ?_ ?_ j (((cfg2.win 2).blk t).view.emb j) ?_ ?_
  · intro a k
    show V c main_v46 (((cfg2.win 0).blk t).view.emb (ix2 a k)) = V c main_v46 (ix2 ⟨t.val * 10000 + a.val, _⟩ k)
    refine congrArg (V c main_v46) ?_
    funext d; apply Fin.ext
    match d with
    | ⟨0, _⟩ => show win2_0.index t (0 : Fin 2) * 10000 + 1 * a.val = t.val * 10000 + a.val; omega
    | ⟨1, _⟩ => show win2_0.index t (1 : Fin 2) * 128 + 1 * k.val = k.val; omega
  · intro k b
    show V c main_arg4 (((cfg2.win 1).blk t).view.emb (ix2 k b)) = V c main_arg4 (ix2 k b)
    refine congrArg (V c main_arg4) ?_
    funext d; apply Fin.ext
    match d with
    | ⟨0, _⟩ => show win2_1.index t (0 : Fin 2) * 128 + 1 * k.val = k.val; omega
    | ⟨1, _⟩ => show win2_1.index t (1 : Fin 2) * 64 + 1 * b.val = b.val; omega
  · show win2_2.index t (0 : Fin 2) * 10000 + 1 * (j 0).val = t.val * 10000 + (j 0).val; omega
  · show win2_2.index t (1 : Fin 2) * 64 + 1 * (j 1).val = (j 1).val; omega

/-- An index of the output array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- Every entry of the output array is in the block of the point its row falls in. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  have htv : t.val = (i 0).val / 10000 := rfl
  obtain ⟨e0, e1, e2, e3, e4, e5, ht⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The output array after the region: the whole product of the two arrays as the region found them. -/
theorem arr (c : Dev nD) : (dat2 V c).arrAt 2 cfg2.N
    = Cert.GraphLayer.dense (M := 100000) (K := 128) (N := 64) (V c main_v46) (V c main_arg4) :=
  (dat2 V c).arrAt_eq_of_cover 2 _ (fun t _ => flushed_eq V c t) cover

end Cert.KernelIdeal.Region2

end
-- ==== Proof.Region3.lean ====
/-
  Region 3 of the idealized kernel: the final bias, tiled over the nodes.

  The region's grid has ten points. At point t the first window stages rows 10000·t … 10000·t + 9999 of the
  [100000,64] operand, the second the bias as one row [1,64], and the body stores x + bias, entry by entry. Point t
  writes back rows 10000·t … of the whole-array sum; the ten blocks tile the output array.
-/
import proofs.«101670_j87316685127961_1_alg».proof.Proof.Gen.KernelIdeal.Frame
import proofs.«101670_j87316685127961_1_alg».proof.Proof.LibGraphLayer

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the bias at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The body's stored value at an entry: the staged entry plus the staged bias row laid along the rows. -/
theorem pay_apply (x0 : Vec Ideal S10000x64 .f32) (x1 : Vec Ideal S1x64 .f32) (j : S10000x64.Idx) :
    k3_pay1 x0 x1 j = x0 j + broadcastTo S10000x64 x1 broadcasts_S1x64_S10000x64 j := by
  unfold k3_pay1
  rw [shapeCast_self, shapeCast_self]
  rfl

/-- The same on a block of rows of `X`, the bias row holding the vector `b`: the whole-array sum at the entry
    the block's row stands for. -/
theorem pay_at (X : FVec Ideal S100000x64 .f32) (b : FVec Ideal S64 .f32)
    (x0 : Vec Ideal S10000x64 .f32) (x1 : Vec Ideal S1x64 .f32) (row : Fin 10000 → Fin 100000)
    (h0 : ∀ (r : Fin 10000) (q : Fin 64), x0 (ix2 r q) = X (ix2 (row r) q))
    (h1 : ∀ q : Fin 64, x1 (ix2 (0 : Fin 1) q) = b (ix1 q))
    (j : S10000x64.Idx) (i : S100000x64.Idx) (e0 : (i 0).val = (row (j 0)).val) (e1 : (i 1).val = (j 1).val) :
    k3_pay1 x0 x1 j = Cert.GraphLayer.biasAdd (M := 100000) (N := 64) X b i := by
  rw [pay_apply]
  exact Cert.GraphLayer.biasAdd_rows row X b x0 x1 h0 h1 broadcasts_S1x64_S10000x64 j i e0 e1

/-- What point t writes back is block t of the whole-array sum of the arrays as the region finds them, the bias
    row read as the vector `b` it holds. -/
theorem flushed_eq (c : Dev nD) (b : FVec Ideal S64 .f32)
    (hb : ∀ q : Fin 64, V c main_v61 (ix2 (0 : Fin 1) q) = b (ix1 q)) (t : Fin cfg3.N) :
    (dat3 V c).flushed 2 t = ((cfg3.win 2).blk t).view.read (Elt Ideal)
      (Cert.GraphLayer.biasAdd (M := 100000) (N := 64) (V c main_v60) b) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5, ht⟩ := idx_facts t
  funext j
  have hj0 : (j 0).val < 10000 := (j 0).isLt
  show k3_pay1 (iblk3 V c 0 t) (iblk3 V c 1 t) j
    = Cert.GraphLayer.biasAdd (M := 100000) (N := 64) (V c main_v60) b (((cfg3.win 2).blk t).view.emb j)
  refine pay_at (V c main_v60) b (iblk3 V c 0 t) (iblk3 V c 1 t)
    (fun r => ⟨t.val * 10000 + r.val, by have := r.isLt; omega⟩) ?_ ?_ j (((cfg3.win 2).blk t).view.emb j) ?_ ?_
  · intro r q
    show V c main_v60 (((cfg3.win 0).blk t).view.emb (ix2 r q)) = V c main_v60 (ix2 ⟨t.val * 10000 + r.val, _⟩ q)
    refine congrArg (V c main_v60) ?_
    funext d; apply Fin.ext
    match d with
    | ⟨0, _⟩ => show win3_0.index t (0 : Fin 2) * 10000 + 1 * r.val = t.val * 10000 + r.val; omega
    | ⟨1, _⟩ => show win3_0.index t (1 : Fin 2) * 64 + 1 * q.val = q.val; omega
  · intro q
    refine Eq.trans ?_ (hb q)
    show V c main_v61 (((cfg3.win 1).blk t).view.emb (ix2 (0 : Fin 1) q)) = V c main_v61 (ix2 (0 : Fin 1) q)
    refine congrArg (V c main_v61) ?_
    funext d; apply Fin.ext
    match d with
    | ⟨0, _⟩ => show win3_1.index t (0 : Fin 2) * 1 + 1 * 0 = 0; omega
    | ⟨1, _⟩ => show win3_1.index t (1 : Fin 2) * 64 + 1 * q.val = q.val; omega
  · show win3_2.index t (0 : Fin 2) * 10000 + 1 * (j 0).val = t.val * 10000 + (j 0).val; omega
  · show win3_2.index t (1 : Fin 2) * 64 + 1 * (j 1).val = (j 1).val; omega

/-- An index of the output array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v62).slice (win3_2.rect t)).set ↔ _
  rw [View.set_slice_whole, Rect.mem_set_unit]
  exact Iff.rfl

/-- Every entry of the output array is in the block of the point its row falls in. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  have htv : t.val = (i 0).val / 10000 := rfl
  obtain ⟨e0, e1, e2, e3, e4, e5, ht⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- The output array after the region: the operand as the region found it plus the bias. -/
theorem arr (c : Dev nD) (b : FVec Ideal S64 .f32)
    (hb : ∀ q : Fin 64, V c main_v61 (ix2 (0 : Fin 1) q) = b (ix1 q)) :
    (dat3 V c).arrAt 2 cfg3.N = Cert.GraphLayer.biasAdd (M := 100000) (N := 64) (V c main_v60) b :=
  (dat3 V c).arrAt_eq_of_cover 2 _ (fun t _ => flushed_eq V c b hb t) cover

end Cert.KernelIdeal.Region3

end
-- ==== Proof.KernelGlue.lean ====
/-
  The idealized kernel's host operations, read at the buffers the regions and the later stretches take.

  Between its four tiled regions the kernel's @main runs the same host operations as the reference: it builds the
  edges' end points with the self-loops, the degrees and the edge weights before the first region, and after each
  dense region it gathers the rows at the edges' sources, scales them by the edge weights and sums them into the
  edges' destinations. Each such stretch is read here at the buffers that matter as the reference's stage function
  (Proof/RefStages.lean) of the contents it starts from: the two programs' dimension records carry the same lists,
  so the terms are the same. A buffer no later operation or region writes keeps its contents across a boundary. The
  biases and the slope reach their regions reshaped to one row and to one cell.
-/
import proofs.«101670_j87316685127961_1_alg».proof.Proof.Gen.KernelIdeal.Frame
import proofs.«101670_j87316685127961_1_alg».proof.Proof.RefStages

set_option maxRecDepth 16384

noncomputable section

namespace Cert.KernelIdeal.Glue

open Cert.KernelIdeal Cert.KernelIdeal.Gen
open Idealize.ShloMosaic Idealize.ShloMosaic.TcCoe Idealize.ShloMosaic.ValueIdx Idealize.ShloMosaic.StableHlo
open Cert.ReferenceIdeal (Stages.srcOf Stages.dstOf Stages.norm Stages.agg128 Stages.agg64)

variable (m : (ℓ : Loc nD τ sig) → Buf (Elt Ideal) ℓ) (ρ : Dev nD → PrngReg)

/-! ## Before the first region -/

/-- The edges' sources. -/
theorem src3 (c : Dev nD) : W3 m ρ c (Proc.devRef .tc main_v3)
    = Cert.ReferenceIdeal.Stages.srcOf (m ((c : Thread nD τ).loc main_arg1)) := by
  dsimp only [W3, W2, W1, hostOps0, hostOps0_1, hostOps0_2]
  after_results
  rfl

/-- The edges' destinations. -/
theorem dst3 (c : Dev nD) : W3 m ρ c (Proc.devRef .tc main_v6)
    = Cert.ReferenceIdeal.Stages.dstOf (m ((c : Thread nD τ).loc main_arg1)) := by
  dsimp only [W3, W2, W1, hostOps0, hostOps0_1, hostOps0_2]
  after_results
  rfl

/-! The edge weights, stage by stage: the degrees and their two uses after the first stretch, the select of the
    outlined `where` after the second, the two gathers and their product after the third. -/

/-- deg > 0, after the first stretch. -/
theorem pos1 (c : Dev nD) : W1 m ρ c (Proc.devRef .tc main_v12)
    = cmpf (F := Ideal) .ogt (Cert.ReferenceIdeal.Stages.deg (Cert.ReferenceIdeal.Stages.dstOf (m ((c : Thread nD τ).loc main_arg1))))
        (broadcastInDim S100000 ![] bcast_S_S100000 (constant S_ .f32 0x00000000#32)) := by
  dsimp only [W1, hostOps0]
  after_results
  rfl

/-- deg^(-1/2), after the first stretch. -/
theorem rsq1 (c : Dev nD) : W1 m ρ c (Proc.devRef .tc main_v13)
    = (Host.rsqrt (Cert.ReferenceIdeal.Stages.deg (F := Ideal) (Cert.ReferenceIdeal.Stages.dstOf (m ((c : Thread nD τ).loc main_arg1)))) :
        FVec Ideal S100000 .f32) := by
  dsimp only [W1, hostOps0]
  after_results
  rfl

/-- The zero the `where` falls back to. -/
theorem zero1 (c : Dev nD) : W1 m ρ c (Proc.devRef .tc main_cst_2) = constant (F := Ideal) S_ .f32 0x00000000#32 := by
  dsimp only [W1, hostOps0]
  after_results
  try rfl

theorem src1 (c : Dev nD) : W1 m ρ c (Proc.devRef .tc main_v3) = Cert.ReferenceIdeal.Stages.srcOf (m ((c : Thread nD τ).loc main_arg1)) := by
  dsimp only [W1, hostOps0]
  after_results
  rfl

theorem dst1 (c : Dev nD) : W1 m ρ c (Proc.devRef .tc main_v6) = Cert.ReferenceIdeal.Stages.dstOf (m ((c : Thread nD τ).loc main_arg1)) := by
  dsimp only [W1, hostOps0]
  after_results
  rfl

/-- The outlined `where`: the second stretch, from any contents. -/
theorem where2 (c : Dev nD) : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) := by
  dsimp only [W2, hostOps0_1]
  generalize W1 m ρ c = U
  after_results
  rfl

theorem k2_v3 (c : Dev nD) : W2 m ρ c (Proc.devRef .tc main_v3) = W1 m ρ c (Proc.devRef .tc main_v3) := by
  dsimp only [W2, hostOps0_1]
  generalize W1 m ρ c = U
  after_results
  try rfl

theorem k2_v6 (c : Dev nD) : W2 m ρ c (Proc.devRef .tc main_v6) = W1 m ρ c (Proc.devRef .tc main_v6) := by
  dsimp only [W2, hostOps0_1]
  generalize W1 m ρ c = U
  after_results
  try rfl

set_option maxHeartbeats 2000000 in
/-- The two gathers and their product: the third stretch, from any contents. -/
theorem gathers3 (c : Dev nD) : W3 m ρ c (Proc.devRef .tc main_v29)
    = Cert.ReferenceIdeal.Stages.normOf (W2 m ρ c (Proc.devRef .tc main_v14)) (W2 m ρ c (Proc.devRef .tc main_v3))
        (W2 m ρ c (Proc.devRef .tc main_v6)) := by
  dsimp only [W3, hostOps0_2]
  generalize W2 m ρ c = U
  after_results_simp
  rfl

/-- The edge weights. -/
theorem nrm3 (c : Dev nD) : W3 m ρ c (Proc.devRef .tc main_v29)
    = Cert.ReferenceIdeal.Stages.norm (Cert.ReferenceIdeal.Stages.srcOf (m ((c : Thread nD τ).loc main_arg1)))
        (Cert.ReferenceIdeal.Stages.dstOf (m ((c : Thread nD τ).loc main_arg1))) := by
  rw [gathers3, where2, k2_v3, k2_v6, pos1, rsq1, zero1, src1, dst1]
  rfl

/-! The arguments are as launched when the first region is entered. -/
theorem arg0_3 (c : Dev nD) : W3 m ρ c (Proc.devRef .tc main_arg0) = m ((c : Thread nD τ).loc main_arg0) := by
  dsimp only [W3, W2, W1, hostOps0, hostOps0_1, hostOps0_2]
  after_results
  try rfl
theorem arg2_3 (c : Dev nD) : W3 m ρ c (Proc.devRef .tc main_arg2) = m ((c : Thread nD τ).loc main_arg2) := by
  dsimp only [W3, W2, W1, hostOps0, hostOps0_1, hostOps0_2]
  after_results
  try rfl
theorem arg3_3 (c : Dev nD) : W3 m ρ c (Proc.devRef .tc main_arg3) = m ((c : Thread nD τ).loc main_arg3) := by
  dsimp only [W3, W2, W1, hostOps0, hostOps0_1, hostOps0_2]
  after_results
  try rfl
theorem arg4_3 (c : Dev nD) : W3 m ρ c (Proc.devRef .tc main_arg4) = m ((c : Thread nD τ).loc main_arg4) := by
  dsimp only [W3, W2, W1, hostOps0, hostOps0_1, hostOps0_2]
  after_results
  try rfl
theorem arg5_3 (c : Dev nD) : W3 m ρ c (Proc.devRef .tc main_arg5) = m ((c : Thread nD τ).loc main_arg5) := by
  dsimp only [W3, W2, W1, hostOps0, hostOps0_1, hostOps0_2]
  after_results
  try rfl
theorem arg6_3 (c : Dev nD) : W3 m ρ c (Proc.devRef .tc main_arg6) = m ((c : Thread nD τ).loc main_arg6) := by
  dsimp only [W3, W2, W1, hostOps0, hostOps0_1, hostOps0_2]
  after_results
  try rfl

/-! ## After the first dense region -/

set_option maxHeartbeats 2000000 in
/-- The first aggregation, of the first region's output. -/
theorem agg5 (c : Dev nD) : W5 m ρ c (Proc.devRef .tc main_v43)
    = Cert.ReferenceIdeal.Stages.agg128 (W4 m ρ c (Proc.devRef .tc main_v30)) (W4 m ρ c (Proc.devRef .tc main_v3))
        (W4 m ρ c (Proc.devRef .tc main_v6)) (W4 m ρ c (Proc.devRef .tc main_v29)) := by
  dsimp only [W5, hostOps1]
  after_results_simp
  rfl

/-- The first bias as one row. -/
theorem row5 (c : Dev nD) : W5 m ρ c (Proc.devRef .tc main_v44)
    = shapeCast S1x128 (W4 m ρ c (Proc.devRef .tc main_arg3)) shapeCasts_S128_S1x128 := by
  dsimp only [W5, hostOps1]
  after_results
  try rfl

/-- The slope as one cell. -/
theorem cell5 (c : Dev nD) : W5 m ρ c (Proc.devRef .tc main_v45)
    = shapeCast S1x1 (W4 m ρ c (Proc.devRef .tc main_arg6)) shapeCasts_S1_S1x1 := by
  dsimp only [W5, hostOps1]
  after_results
  try rfl

/-! ## After the second dense region -/

set_option maxHeartbeats 2000000 in
/-- The second aggregation, of the second dense region's output. -/
theorem agg8 (c : Dev nD) : W8 m ρ c (Proc.devRef .tc main_v60)
    = Cert.ReferenceIdeal.Stages.agg64 (W7 m ρ c (Proc.devRef .tc main_v47)) (W7 m ρ c (Proc.devRef .tc main_v3))
        (W7 m ρ c (Proc.devRef .tc main_v6)) (W7 m ρ c (Proc.devRef .tc main_v29)) := by
  dsimp only [W8, hostOps3]
  after_results_simp
  rfl

/-- The second bias as one row. -/
theorem row8 (c : Dev nD) : W8 m ρ c (Proc.devRef .tc main_v61)
    = shapeCast S1x64 (W7 m ρ c (Proc.devRef .tc main_arg5)) shapeCasts_S64_S1x64 := by
  dsimp only [W8, hostOps3]
  after_results
  try rfl

/-! ## Kept across a boundary: a buffer the region, or the stretch, does not write -/

theorem k4_v3 (c : Dev nD) : W4 m ρ c (Proc.devRef .tc main_v3) = W3 m ρ c (Proc.devRef .tc main_v3) := W4_of_ne m ρ c main_v3 (by decide)
theorem k4_v6 (c : Dev nD) : W4 m ρ c (Proc.devRef .tc main_v6) = W3 m ρ c (Proc.devRef .tc main_v6) := W4_of_ne m ρ c main_v6 (by decide)
theorem k4_v29 (c : Dev nD) : W4 m ρ c (Proc.devRef .tc main_v29) = W3 m ρ c (Proc.devRef .tc main_v29) := W4_of_ne m ρ c main_v29 (by decide)
theorem k4_arg3 (c : Dev nD) : W4 m ρ c (Proc.devRef .tc main_arg3) = W3 m ρ c (Proc.devRef .tc main_arg3) := W4_of_ne m ρ c main_arg3 (by decide)
theorem k4_arg4 (c : Dev nD) : W4 m ρ c (Proc.devRef .tc main_arg4) = W3 m ρ c (Proc.devRef .tc main_arg4) := W4_of_ne m ρ c main_arg4 (by decide)
theorem k4_arg5 (c : Dev nD) : W4 m ρ c (Proc.devRef .tc main_arg5) = W3 m ρ c (Proc.devRef .tc main_arg5) := W4_of_ne m ρ c main_arg5 (by decide)
theorem k4_arg6 (c : Dev nD) : W4 m ρ c (Proc.devRef .tc main_arg6) = W3 m ρ c (Proc.devRef .tc main_arg6) := W4_of_ne m ρ c main_arg6 (by decide)
theorem k5_v3 (c : Dev nD) : W5 m ρ c (Proc.devRef .tc main_v3) = W4 m ρ c (Proc.devRef .tc main_v3) := by
  dsimp only [W5, hostOps1]
  after_results
  try rfl
theorem k5_v6 (c : Dev nD) : W5 m ρ c (Proc.devRef .tc main_v6) = W4 m ρ c (Proc.devRef .tc main_v6) := by
  dsimp only [W5, hostOps1]
  after_results
  try rfl
theorem k5_v29 (c : Dev nD) : W5 m ρ c (Proc.devRef .tc main_v29) = W4 m ρ c (Proc.devRef .tc main_v29) := by
  dsimp only [W5, hostOps1]
  after_results
  try rfl
theorem k5_arg4 (c : Dev nD) : W5 m ρ c (Proc.devRef .tc main_arg4) = W4 m ρ c (Proc.devRef .tc main_arg4) := by
  dsimp only [W5, hostOps1]
  after_results
  try rfl
theorem k5_arg5 (c : Dev nD) : W5 m ρ c (Proc.devRef .tc main_arg5) = W4 m ρ c (Proc.devRef .tc main_arg5) := by
  dsimp only [W5, hostOps1]
  after_results
  try rfl
theorem k6_v3 (c : Dev nD) : W6 m ρ c (Proc.devRef .tc main_v3) = W5 m ρ c (Proc.devRef .tc main_v3) := W6_of_ne m ρ c main_v3 (by decide)
theorem k6_v6 (c : Dev nD) : W6 m ρ c (Proc.devRef .tc main_v6) = W5 m ρ c (Proc.devRef .tc main_v6) := W6_of_ne m ρ c main_v6 (by decide)
theorem k6_v29 (c : Dev nD) : W6 m ρ c (Proc.devRef .tc main_v29) = W5 m ρ c (Proc.devRef .tc main_v29) := W6_of_ne m ρ c main_v29 (by decide)
theorem k6_arg4 (c : Dev nD) : W6 m ρ c (Proc.devRef .tc main_arg4) = W5 m ρ c (Proc.devRef .tc main_arg4) := W6_of_ne m ρ c main_arg4 (by decide)
theorem k6_arg5 (c : Dev nD) : W6 m ρ c (Proc.devRef .tc main_arg5) = W5 m ρ c (Proc.devRef .tc main_arg5) := W6_of_ne m ρ c main_arg5 (by decide)
theorem k7_v3 (c : Dev nD) : W7 m ρ c (Proc.devRef .tc main_v3) = W6 m ρ c (Proc.devRef .tc main_v3) := W7_of_ne m ρ c main_v3 (by decide)
theorem k7_v6 (c : Dev nD) : W7 m ρ c (Proc.devRef .tc main_v6) = W6 m ρ c (Proc.devRef .tc main_v6) := W7_of_ne m ρ c main_v6 (by decide)
theorem k7_v29 (c : Dev nD) : W7 m ρ c (Proc.devRef .tc main_v29) = W6 m ρ c (Proc.devRef .tc main_v29) := W7_of_ne m ρ c main_v29 (by decide)
theorem k7_arg5 (c : Dev nD) : W7 m ρ c (Proc.devRef .tc main_arg5) = W6 m ρ c (Proc.devRef .tc main_arg5) := W7_of_ne m ρ c main_arg5 (by decide)

end Cert.KernelIdeal.Glue

end
-- ==== Proof.KernelValue.lean ====
/-
  What the idealized kernel's result buffer holds after the run.

  Reading the boundary contents back from the last one: the final bias region leaves its operand plus b2; its operand
  is the second aggregation of the second dense region's output; that region leaves the product of its operand with
  W2; its operand is what the bias-and-PReLU region leaves of the first aggregation, with b1 and the slope; the first
  aggregation is of the first dense region's output, x·W1; and the three edge vectors every aggregation uses are
  computed once, before the first region, from the edge list, and kept since. So the result is the network of
  Proof/RefLayers.lean on the launch contents of the arguments.
-/
import proofs.«101670_j87316685127961_1_alg».proof.Proof.Region0
import proofs.«101670_j87316685127961_1_alg».proof.Proof.Region1
import proofs.«101670_j87316685127961_1_alg».proof.Proof.Region2
import proofs.«101670_j87316685127961_1_alg».proof.Proof.Region3
import proofs.«101670_j87316685127961_1_alg».proof.Proof.KernelGlue
import proofs.«101670_j87316685127961_1_alg».proof.Proof.RefLayers

set_option maxRecDepth 16384

noncomputable section

namespace Cert.KernelIdeal.Result

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- The edges' sources, from the launch contents of the edge list. -/
abbrev src (c : Dev nD) := Cert.ReferenceIdeal.Stages.srcOf (F := Ideal) (m ((c : Thread nD τ).loc main_arg1))
/-- The edges' destinations. -/
abbrev dst (c : Dev nD) := Cert.ReferenceIdeal.Stages.dstOf (F := Ideal) (m ((c : Thread nD τ).loc main_arg1))
/-- The edge weights. -/
abbrev nrm (c : Dev nD) := Cert.ReferenceIdeal.Stages.norm (F := Ideal) (src m c) (dst m c)

/-- The first dense region's output: x·W1. -/
theorem dense1 (c : Dev nD) : W4 m ρ c (Proc.devRef .tc main_v30)
    = Cert.GraphLayer.dense (M := 100000) (K := 128) (N := 128) (m ((c : Thread nD τ).loc main_arg0)) (m ((c : Thread nD τ).loc main_arg2)) :=
  (W4_arr m ρ c 2).trans ((Cert.KernelIdeal.Region0.arr (V3 m ρ) c).trans (by
    show Cert.GraphLayer.dense (M := 100000) (K := 128) (N := 128) (W3 m ρ c (Proc.devRef .tc main_arg0)) (W3 m ρ c (Proc.devRef .tc main_arg2)) = _
    rw [Cert.KernelIdeal.Glue.arg0_3, Cert.KernelIdeal.Glue.arg2_3]))

/-- The first aggregation. -/
theorem agg1 (c : Dev nD) : W5 m ρ c (Proc.devRef .tc main_v43)
    = Cert.ReferenceIdeal.Stages.agg128 (F := Ideal)
        (Cert.GraphLayer.dense (M := 100000) (K := 128) (N := 128) (m ((c : Thread nD τ).loc main_arg0)) (m ((c : Thread nD τ).loc main_arg2)))
        (src m c) (dst m c) (nrm m c) := by
  rw [Cert.KernelIdeal.Glue.agg5, dense1, Cert.KernelIdeal.Glue.k4_v3, Cert.KernelIdeal.Glue.k4_v6, Cert.KernelIdeal.Glue.k4_v29,
    Cert.KernelIdeal.Glue.src3, Cert.KernelIdeal.Glue.dst3, Cert.KernelIdeal.Glue.nrm3]

/-- The staged bias row holds b1. -/
theorem row1 (c : Dev nD) (q : Fin 128) :
    V5 m ρ c main_v44 (ix2 (0 : Fin 1) q) = m ((c : Thread nD τ).loc main_arg3) (ix1 q) :=
  (congrFun (Cert.KernelIdeal.Glue.row5 m ρ c) _).trans
    ((shapeCast_a_1a_apply _ shapeCasts_S128_S1x128 (0 : Fin 1) q).trans
      (congrFun ((Cert.KernelIdeal.Glue.k4_arg3 m ρ c).trans (Cert.KernelIdeal.Glue.arg3_3 m ρ c)) _))

/-- The staged cell holds the slope. -/
theorem cell1 (c : Dev nD) :
    V5 m ρ c main_v45 (ix2 (0 : Fin 1) (0 : Fin 1)) = m ((c : Thread nD τ).loc main_arg6) (ix1 (0 : Fin 1)) :=
  (congrFun (Cert.KernelIdeal.Glue.cell5 m ρ c) _).trans
    ((shapeCast_a_1a_apply _ shapeCasts_S1_S1x1 (0 : Fin 1) (0 : Fin 1)).trans
      (congrFun ((Cert.KernelIdeal.Glue.k4_arg6 m ρ c).trans (Cert.KernelIdeal.Glue.arg6_3 m ρ c)) _))

/-- The bias-and-PReLU region's output. -/
theorem act1 (c : Dev nD) : W6 m ρ c (Proc.devRef .tc main_v46)
    = Cert.GraphLayer.biasPrelu (M := 100000) (N := 128)
        (Cert.ReferenceIdeal.Stages.agg128 (F := Ideal)
          (Cert.GraphLayer.dense (M := 100000) (K := 128) (N := 128) (m ((c : Thread nD τ).loc main_arg0)) (m ((c : Thread nD τ).loc main_arg2)))
          (src m c) (dst m c) (nrm m c))
        (m ((c : Thread nD τ).loc main_arg3)) (m ((c : Thread nD τ).loc main_arg6)) :=
  (W6_arr m ρ c 3).trans ((Cert.KernelIdeal.Region1.arr (V5 m ρ) c (m ((c : Thread nD τ).loc main_arg3))
      (m ((c : Thread nD τ).loc main_arg6)) (row1 m ρ c) (cell1 m ρ c)).trans (by
    show Cert.GraphLayer.biasPrelu (M := 100000) (N := 128) (W5 m ρ c (Proc.devRef .tc main_v43)) _ _ = _
    rw [agg1]))

/-- The second dense region's output. -/
theorem dense2 (c : Dev nD) : W7 m ρ c (Proc.devRef .tc main_v47)
    = Cert.GraphLayer.dense (M := 100000) (K := 128) (N := 64)
        (Cert.GraphLayer.biasPrelu (M := 100000) (N := 128)
          (Cert.ReferenceIdeal.Stages.agg128 (F := Ideal)
            (Cert.GraphLayer.dense (M := 100000) (K := 128) (N := 128) (m ((c : Thread nD τ).loc main_arg0)) (m ((c : Thread nD τ).loc main_arg2)))
            (src m c) (dst m c) (nrm m c))
          (m ((c : Thread nD τ).loc main_arg3)) (m ((c : Thread nD τ).loc main_arg6)))
        (m ((c : Thread nD τ).loc main_arg4)) :=
  (W7_arr m ρ c 2).trans ((Cert.KernelIdeal.Region2.arr (V6 m ρ) c).trans (by
    show Cert.GraphLayer.dense (M := 100000) (K := 128) (N := 64) (W6 m ρ c (Proc.devRef .tc main_v46)) (W6 m ρ c (Proc.devRef .tc main_arg4)) = _
    rw [act1, Cert.KernelIdeal.Glue.k6_arg4, Cert.KernelIdeal.Glue.k5_arg4, Cert.KernelIdeal.Glue.k4_arg4, Cert.KernelIdeal.Glue.arg4_3]))

/-- The second aggregation. -/
theorem agg2 (c : Dev nD) : W8 m ρ c (Proc.devRef .tc main_v60)
    = Cert.ReferenceIdeal.Stages.agg64 (F := Ideal)
        (Cert.GraphLayer.dense (M := 100000) (K := 128) (N := 64)
          (Cert.GraphLayer.biasPrelu (M := 100000) (N := 128)
            (Cert.ReferenceIdeal.Stages.agg128 (F := Ideal)
              (Cert.GraphLayer.dense (M := 100000) (K := 128) (N := 128) (m ((c : Thread nD τ).loc main_arg0)) (m ((c : Thread nD τ).loc main_arg2)))
              (src m c) (dst m c) (nrm m c))
            (m ((c : Thread nD τ).loc main_arg3)) (m ((c : Thread nD τ).loc main_arg6)))
          (m ((c : Thread nD τ).loc main_arg4)))
        (src m c) (dst m c) (nrm m c) := by
  rw [Cert.KernelIdeal.Glue.agg8, dense2,
    Cert.KernelIdeal.Glue.k7_v3, Cert.KernelIdeal.Glue.k6_v3, Cert.KernelIdeal.Glue.k5_v3, Cert.KernelIdeal.Glue.k4_v3, Cert.KernelIdeal.Glue.src3,
    Cert.KernelIdeal.Glue.k7_v6, Cert.KernelIdeal.Glue.k6_v6, Cert.KernelIdeal.Glue.k5_v6, Cert.KernelIdeal.Glue.k4_v6, Cert.KernelIdeal.Glue.dst3,
    Cert.KernelIdeal.Glue.k7_v29, Cert.KernelIdeal.Glue.k6_v29, Cert.KernelIdeal.Glue.k5_v29, Cert.KernelIdeal.Glue.k4_v29, Cert.KernelIdeal.Glue.nrm3]

/-- The staged bias row holds b2. -/
theorem row2 (c : Dev nD) (q : Fin 64) :
    V8 m ρ c main_v61 (ix2 (0 : Fin 1) q) = m ((c : Thread nD τ).loc main_arg5) (ix1 q) :=
  (congrFun (Cert.KernelIdeal.Glue.row8 m ρ c) _).trans
    ((shapeCast_a_1a_apply _ shapeCasts_S64_S1x64 (0 : Fin 1) q).trans
      (congrFun ((Cert.KernelIdeal.Glue.k7_arg5 m ρ c).trans ((Cert.KernelIdeal.Glue.k6_arg5 m ρ c).trans
        ((Cert.KernelIdeal.Glue.k5_arg5 m ρ c).trans ((Cert.KernelIdeal.Glue.k4_arg5 m ρ c).trans (Cert.KernelIdeal.Glue.arg5_3 m ρ c))))) _))

/-- THE RESULT: the network on the launch contents of the arguments. -/
theorem out (c : Dev nD) : W9 m ρ c (Proc.devRef .tc main_v62)
    = Cert.ReferenceIdeal.Layers.netL (m ((c : Thread nD τ).loc main_arg0)) (src m c) (dst m c) (nrm m c)
        (m ((c : Thread nD τ).loc main_arg2)) (m ((c : Thread nD τ).loc main_arg3)) (m ((c : Thread nD τ).loc main_arg4))
        (m ((c : Thread nD τ).loc main_arg5)) (m ((c : Thread nD τ).loc main_arg6)) :=
  (W9_arr m ρ c 2).trans ((Cert.KernelIdeal.Region3.arr (V8 m ρ) c (m ((c : Thread nD τ).loc main_arg5)) (row2 m ρ c)).trans (by
    show Cert.GraphLayer.biasAdd (M := 100000) (N := 64) (W8 m ρ c (Proc.devRef .tc main_v60)) _ = _
    rw [agg2]
    rfl))

end Cert.KernelIdeal.Result

end
-- ==== Proof.lean ====
/-
  A two-layer graph convolution, tiled over the nodes, against its array-at-a-time reference: the proof of `Cert.Claim`.

  Both programs compute, from node features x [100000,128], an edge list [2,600000], weights W1 [128,128], W2 [128,64],
  biases b1, b2 and a PReLU slope a,

      out = agg (prelu_a (agg (x·W1) + b1) · W2) + b2,

  where agg h sums, into every node, norm(edge) · h[source(edge)] over the edges entering it (one self-loop per node
  appended), and norm is deg^(-1/2) at both ends of the edge. The kernel runs the two products, the bias-and-PReLU and
  the last bias as four regions tiled over blocks of 10000 nodes (the products on operands narrowed to bf16, which at
  the extended reals is the identity), and everything about the edges as the same host operations the reference uses.

  Each of the four dense stages treats the rows of its matrix independently, so a block of rows of the operand gives
  that block of rows of the result, and the ten blocks tile the array (Proof/LibGraphLayer.lean, Proof/Region0.lean …
  Proof/Region3.lean). The host operations in between are the reference's own, read as one function of the matrix
  they aggregate and of the three edge vectors (Proof/RefStages.lean, Proof/KernelGlue.lean); nothing looks inside a
  gather or a scatter. Read back from the last boundary, the kernel's result is the same composition of the same
  functions as the reference's (Proof/KernelValue.lean, Proof/RefLayers.lean). No law of real arithmetic is used, so
  the precondition is never opened.

  The three frames: the two kernel programs' are their generated frame certificates; the reference has no kernel and
  its frame is its run with the result dropped. The idealization rewrote nothing, so `preserves` is trivial.
-/
import proofs.«101670_j87316685127961_1_alg».proof.Defs
import proofs.«101670_j87316685127961_1_alg».proof.Proof.Gen.Kernel
import proofs.«101670_j87316685127961_1_alg».proof.Proof.Gen.Kernel.Frame
import proofs.«101670_j87316685127961_1_alg».proof.Proof.Gen.KernelIdeal
import proofs.«101670_j87316685127961_1_alg».proof.Proof.Gen.KernelIdeal.Frame
import proofs.«101670_j87316685127961_1_alg».proof.Proof.Gen.ReferenceIdeal
import proofs.«101670_j87316685127961_1_alg».proof.Proof.Gen.Pre_finite_inputs
import proofs.«101670_j87316685127961_1_alg».proof.Proof.RefRunP
import proofs.«101670_j87316685127961_1_alg».proof.Proof.RefLayers
import proofs.«101670_j87316685127961_1_alg».proof.Proof.KernelRun
import proofs.«101670_j87316685127961_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the network of the layer functions on those
    arguments: the kernel by its run and the fold read back, the reference by its run and its stages. -/
theorem algebraic : Cert.algebraic_KernelIdeal_ReferenceIdeal := by
  intro m ρ m' ρ' _ hagree
  refine ⟨fun c => Cert.ReferenceIdeal.Layers.netL (m ((c.tc : Thread Cert.KernelIdeal.nD Cert.KernelIdeal.τ).loc Cert.KernelIdeal.main_arg0))
      (Cert.KernelIdeal.Result.src m c) (Cert.KernelIdeal.Result.dst m c) (Cert.KernelIdeal.Result.nrm m c)
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.out m ρ c), (h c).2⟩) (Cert.KernelIdeal.Run.run_out m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Stages.res_eq, Cert.ReferenceIdeal.Layers.net_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
